-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x3072 : Shape := ⟨3, ![16, 2048, 3072]⟩
abbrev S16x2048x6 : Shape := ⟨3, ![16, 2048, 6]⟩
abbrev S16x2048x4 : Shape := ⟨3, ![16, 2048, 4]⟩
abbrev S16x2048x17x3 : Shape := ⟨4, ![16, 2048, 17, 3]⟩
abbrev S16x2048 : Shape := ⟨2, ![16, 2048]⟩
abbrev S128x3133 : Shape := ⟨2, ![128, 3133]⟩
abbrev S128 : Shape := ⟨1, ![128]⟩
abbrev S_ : Shape := ⟨0, ![]⟩

class Facts : Prop where
  bcast_S_S16x2048x3072 : S_.BroadcastsInDim S16x2048x3072 (![] : Fin 0 → Fin S16x2048x3072.rank)
  reducesTo_S16x2048x3072_S_d0_1_2 : S16x2048x3072.ReducesTo [0, 1, 2] S_
  h_S_ : 0 < S_.numel
  bcast_S_S16x2048x6 : S_.BroadcastsInDim S16x2048x6 (![] : Fin 0 → Fin S16x2048x6.rank)
  reducesTo_S16x2048x6_S_d0_1_2 : S16x2048x6.ReducesTo [0, 1, 2] S_
  bcast_S_S16x2048x4 : S_.BroadcastsInDim S16x2048x4 (![] : Fin 0 → Fin S16x2048x4.rank)
  reducesTo_S16x2048x4_S_d0_1_2 : S16x2048x4.ReducesTo [0, 1, 2] S_
  bcast_S_S16x2048x17x3 : S_.BroadcastsInDim S16x2048x17x3 (![] : Fin 0 → Fin S16x2048x17x3.rank)
  reducesTo_S16x2048x17x3_S_d0_1_2_3 : S16x2048x17x3.ReducesTo [0, 1, 2, 3] S_
  bcast_S_S128x3133 : S_.BroadcastsInDim S128x3133 (![] : Fin 0 → Fin S128x3133.rank)
  reducesTo_S128x3133_S_d0_1 : S128x3133.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x3133 .f32) (main_arg6 : FVec F S128 .f32) (main_v13 : IVec S_ 1) (main_v16 : IVec S16x2048x17x3 1) : IVec S_ 1 :=
  let main_c_5 : IVec S_ 1 := constantI S_ 1 1#1
  let main_v17 : IVec S_ 1 := (fun x v => Host.reduce IntOp.andi x v reducesTo_S16x2048x17x3_S_d0_1_2_3 h_S_) main_v16 main_c_5
  let main_v18 : IVec S_ 1 := andi main_v13 main_v17
  let main_v19 : FVec F S128x3133 .f32 := Host.absf main_arg5
  let main_cst_6 : FVec F S_ .f32 := constant S_ .f32 0x7F800000#32
  let main_v20 : FVec F S128x3133 .f32 := broadcastInDim S128x3133 ![] bcast_S_S128x3133 main_cst_6
  let main_v21 : IVec S128x3133 1 := cmpf .olt main_v19 main_v20
  let main_c_7 : IVec S_ 1 := constantI S_ 1 1#1
  let main_v22 : IVec S_ 1 := (fun x v => Host.reduce IntOp.andi x v reducesTo_S128x3133_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S16x2048x3072 .f32) (main_arg1 : FVec F S16x2048x6 .f32) (main_arg2 : FVec F S16x2048x4 .f32) (main_arg3 : FVec F S16x2048x17x3 .f32) (main_arg4 : IVec S16x2048 1) (main_arg5 : FVec F S128x3133 .f32) (main_arg6 : FVec F S128 .f32) : IVec S_ 1 :=
  let main_v0 : FVec F S16x2048x3072 .f32 := Host.absf main_arg0
  let main_cst : FVec F S_ .f32 := constant S_ .f32 0x7F800000#32
  let main_v1 : FVec F S16x2048x3072 .f32 := broadcastInDim S16x2048x3072 ![] bcast_S_S16x2048x3072 main_cst
  let main_v2 : IVec S16x2048x3072 1 := cmpf .olt main_v0 main_v1
  let main_c : IVec S_ 1 := constantI S_ 1 1#1
  let main_v3 : IVec S_ 1 := (fun x v => Host.reduce IntOp.andi x v reducesTo_S16x2048x3072_S_d0_1_2 h_S_) main_v2 main_c
  let main_v4 : FVec F S16x2048x6 .f32 := Host.absf main_arg1
  let main_cst_0 : FVec F S_ .f32 := constant S_ .f32 0x7F800000#32
  let main_v5 : FVec F S16x2048x6 .f32 := broadcastInDim S16x2048x6 ![] bcast_S_S16x2048x6 main_cst_0
  let main_v6 : IVec S16x2048x6 1 := cmpf .olt main_v4 main_v5
  let main_c_1 : IVec S_ 1 := constantI S_ 1 1#1
  let main_v7 : IVec S_ 1 := (fun x v => Host.reduce IntOp.andi x v reducesTo_S16x2048x6_S_d0_1_2 h_S_) main_v6 main_c_1
  let main_v8 : IVec S_ 1 := andi main_v3 main_v7
  let main_v9 : FVec F S16x2048x4 .f32 := Host.absf main_arg2
  let main_cst_2 : FVec F S_ .f32 := constant S_ .f32 0x7F800000#32
  let main_v10 : FVec F S16x2048x4 .f32 := broadcastInDim S16x2048x4 ![] bcast_S_S16x2048x4 main_cst_2
  let main_v11 : IVec S16x2048x4 1 := cmpf .olt main_v9 main_v10
  let main_c_3 : IVec S_ 1 := constantI S_ 1 1#1
  let main_v12 : IVec S_ 1 := (fun x v => Host.reduce IntOp.andi x v reducesTo_S16x2048x4_S_d0_1_2 h_S_) main_v11 main_c_3
  let main_v13 : IVec S_ 1 := andi main_v8 main_v12
  let main_v14 : FVec F S16x2048x17x3 .f32 := Host.absf main_arg3
  let main_cst_4 : FVec F S_ .f32 := constant S_ .f32 0x7F800000#32
  let main_v15 : FVec F S16x2048x17x3 .f32 := broadcastInDim S16x2048x17x3 ![] bcast_S_S16x2048x17x3 main_cst_4
  let main_v16 : IVec S16x2048x17x3 1 := cmpf .olt main_v14 main_v15
  fn_part1 (F := F) main_arg5 main_arg6 main_v13 main_v16
-- ==== Kernel.lean ====
abbrev S16x2048x3072 : Shape := ⟨3, ![16, 2048, 3072]⟩
abbrev S16x2048x6 : Shape := ⟨3, ![16, 2048, 6]⟩
abbrev S16x2048x4 : Shape := ⟨3, ![16, 2048, 4]⟩
abbrev S16x2048x17x3 : Shape := ⟨4, ![16, 2048, 17, 3]⟩
abbrev S16x2048 : Shape := ⟨2, ![16, 2048]⟩
abbrev S128x3133 : Shape := ⟨2, ![128, 3133]⟩
abbrev S128 : Shape := ⟨1, ![128]⟩
abbrev S32768x3072 : Shape := ⟨2, ![32768, 3072]⟩
abbrev S32768x6 : Shape := ⟨2, ![32768, 6]⟩
abbrev S32768x4 : Shape := ⟨2, ![32768, 4]⟩
abbrev S32768x51 : Shape := ⟨2, ![32768, 51]⟩
abbrev S64x1x512 : Shape := ⟨3, ![64, 1, 512]⟩
abbrev S1x128 : Shape := ⟨2, ![1, 128]⟩
abbrev S32768x128 : Shape := ⟨2, ![32768, 128]⟩
abbrev S512x3072 : Shape := ⟨2, ![512, 3072]⟩
abbrev S512x6 : Shape := ⟨2, ![512, 6]⟩
abbrev S512x4 : Shape := ⟨2, ![512, 4]⟩
abbrev S512x51 : Shape := ⟨2, ![512, 51]⟩
abbrev S1x1x512 : Shape := ⟨3, ![1, 1, 512]⟩
abbrev S512x128 : Shape := ⟨2, ![512, 128]⟩
abbrev S128x3072 : Shape := ⟨2, ![128, 3072]⟩
abbrev S128x6 : Shape := ⟨2, ![128, 6]⟩
abbrev S128x4 : Shape := ⟨2, ![128, 4]⟩
abbrev S128x51 : Shape := ⟨2, ![128, 51]⟩
abbrev S1x512 : Shape := ⟨2, ![1, 512]⟩
abbrev S512x1 : Shape := ⟨2, ![512, 1]⟩
abbrev S16x2048x128 : Shape := ⟨3, ![16, 2048, 128]⟩

abbrev nBuf : Space → Nat
  | .hbm => 16
  | .vmem => 14
  | .smem => 0
  | _ => 0

abbrev bufTy : (tb : Table) → Fin (tcTables nBuf tb) → BufTy
  | .hbm, ⟨0, _⟩ => ⟨S16x2048x3072, .f32⟩
  | .hbm, ⟨1, _⟩ => ⟨S16x2048x6, .f32⟩
  | .hbm, ⟨2, _⟩ => ⟨S16x2048x4, .f32⟩
  | .hbm, ⟨3, _⟩ => ⟨S16x2048x17x3, .f32⟩
  | .hbm, ⟨4, _⟩ => ⟨S16x2048, .i1⟩
  | .hbm, ⟨5, _⟩ => ⟨S128x3133, .f32⟩
  | .hbm, ⟨6, _⟩ => ⟨S128, .f32⟩
  | .hbm, ⟨7, _⟩ => ⟨S32768x3072, .f32⟩
  | .hbm, ⟨8, _⟩ => ⟨S32768x6, .f32⟩
  | .hbm, ⟨9, _⟩ => ⟨S32768x4, .f32⟩
  | .hbm, ⟨10, _⟩ => ⟨S32768x51, .f32⟩
  | .hbm, ⟨11, _⟩ => ⟨S64x1x512, .i1⟩
  | .hbm, ⟨12, _⟩ => ⟨S64x1x512, .f32⟩
  | .hbm, ⟨13, _⟩ => ⟨S1x128, .f32⟩
  | .hbm, ⟨14, _⟩ => ⟨S32768x128, .f32⟩
  | .hbm, ⟨15, _⟩ => ⟨S16x2048x128, .f32⟩
  | .local _ .vmem, ⟨0, _⟩ => ⟨S512x3072, .f32⟩
  | .local _ .vmem, ⟨1, _⟩ => ⟨S512x3072, .f32⟩
  | .local _ .vmem, ⟨2, _⟩ => ⟨S512x6, .f32⟩
  | .local _ .vmem, ⟨3, _⟩ => ⟨S512x6, .f32⟩
  | .local _ .vmem, ⟨4, _⟩ => ⟨S512x4, .f32⟩
  | .local _ .vmem, ⟨5, _⟩ => ⟨S512x4, .f32⟩
  | .local _ .vmem, ⟨6, _⟩ => ⟨S512x51, .f32⟩
  | .local _ .vmem, ⟨7, _⟩ => ⟨S512x51, .f32⟩
  | .local _ .vmem, ⟨8, _⟩ => ⟨S1x1x512, .f32⟩
  | .local _ .vmem, ⟨9, _⟩ => ⟨S1x1x512, .f32⟩
  | .local _ .vmem, ⟨10, _⟩ => ⟨S128x3133, .f32⟩
  | .local _ .vmem, ⟨11, _⟩ => ⟨S1x128, .f32⟩
  | .local _ .vmem, ⟨12, _⟩ => ⟨S512x128, .f32⟩
  | .local _ .vmem, ⟨13, _⟩ => ⟨S512x128, .f32⟩
  | _, _ => ⟨S16x2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x6 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x51 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x3133 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S16x2048x3072_S32768x3072 : S16x2048x3072.ShapeCasts S32768x3072
  shapeCasts_S16x2048x6_S32768x6 : S16x2048x6.ShapeCasts S32768x6
  shapeCasts_S16x2048x4_S32768x4 : S16x2048x4.ShapeCasts S32768x4
  shapeCasts_S16x2048x17x3_S32768x51 : S16x2048x17x3.ShapeCasts S32768x51
  shapeCasts_S16x2048_S64x1x512 : S16x2048.ShapeCasts S64x1x512
  shapeCasts_S128_S1x128 : S128.ShapeCasts S1x128
  inb_S128x3133_S128x3133_0_0 : ∀ a, (![0, 0] : Fin 2 → Nat) a + S128x3133.size a ≤ S128x3133.size a
  h_S128x3133 : 0 < S128x3133.numel
  inb_S512x3072_S512x3072_0_0 : ∀ a, (![0, 0] : Fin 2 → Nat) a + S512x3072.size a ≤ S512x3072.size a
  h_S512x3072 : 0 < S512x3072.numel
  shapeCasts_S512x3072_S512x3072 : S512x3072.ShapeCasts S512x3072
  slices_S128x3133_o0_0_S128x3072 : S128x3133.Slices ![0, 0] S128x3072
  inb_S512x6_S512x6_0_0 : ∀ a, (![0, 0] : Fin 2 → Nat) a + S512x6.size a ≤ S512x6.size a
  h_S512x6 : 0 < S512x6.numel
  shapeCasts_S512x6_S512x6 : S512x6.ShapeCasts S512x6
  slices_S128x3133_o0_3072_S128x6 : S128x3133.Slices ![0, 3072] S128x6
  inb_S512x4_S512x4_0_0 : ∀ a, (![0, 0] : Fin 2 → Nat) a + S512x4.size a ≤ S512x4.size a
  h_S512x4 : 0 < S512x4.numel
  shapeCasts_S512x4_S512x4 : S512x4.ShapeCasts S512x4
  slices_S128x3133_o0_3078_S128x4 : S128x3133.Slices ![0, 3078] S128x4
  inb_S512x51_S512x51_0_0 : ∀ a, (![0, 0] : Fin 2 → Nat) a + S512x51.size a ≤ S512x51.size a
  h_S512x51 : 0 < S512x51.numel
  shapeCasts_S512x51_S512x51 : S512x51.ShapeCasts S512x51
  slices_S128x3133_o0_3082_S128x51 : S128x3133.Slices ![0, 3082] S128x51
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  transposes_S1x512_p1_0_S512x1 : S1x512.Transposes [1, 0] S512x1
  broadcasts_S512x1_S512x128 : S512x1.Broadcasts S512x128
  inb_S512x128_S512x128_0_0 : ∀ a, (![0, 0] : Fin 2 → Nat) a + S512x128.size a ≤ S512x128.size a
  h_S512x128 : 0 < S512x128.numel
  shapeCasts_S32768x128_S16x2048x128 : S32768x128.ShapeCasts S16x2048x128
  dot_S512x3072_S128x3072_S512x128_1_1_0_0_n_n_wf : DotDims.WF S512x3072 S128x3072 S512x128 [1] [1] [0] [0] [] []
  dot_S512x6_S128x6_S512x128_1_1_0_0_n_n_wf : DotDims.WF S512x6 S128x6 S512x128 [1] [1] [0] [0] [] []
  dot_S512x4_S128x4_S512x128_1_1_0_0_n_n_wf : DotDims.WF S512x4 S128x4 S512x128 [1] [1] [0] [0] [] []
  dot_S512x51_S128x51_S512x128_1_1_0_0_n_n_wf : DotDims.WF S512x51 S128x51 S512x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x3072.size a ≤ S32768x3072.size a
  hwx0_0 : ∀ i : grid0.Coords, EltTy.bits .f32 = 32 ∨ (Rect.block (s := S32768x3072) S512x3072.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x6.size a ≤ S32768x6.size a
  hwx0_1 : ∀ i : grid0.Coords, EltTy.bits .f32 = 32 ∨ (Rect.block (s := S32768x6) S512x6.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4.size a ≤ S32768x4.size a
  hwx0_2 : ∀ i : grid0.Coords, EltTy.bits .f32 = 32 ∨ (Rect.block (s := S32768x4) S512x4.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x51.size a ≤ S32768x51.size a
  hwx0_3 : ∀ i : grid0.Coords, EltTy.bits .f32 = 32 ∨ (Rect.block (s := S32768x51) S512x51.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512.size a ≤ S64x1x512.size a
  hwx0_4 : ∀ i : grid0.Coords, EltTy.bits .f32 = 32 ∨ (Rect.block (s := S64x1x512) S1x1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x3133.size a ≤ S128x3133.size a
  hwx0_5 : ∀ i : grid0.Coords, EltTy.bits .f32 = 32 ∨ (Rect.block (s := S128x3133) S128x3133.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x128.size a ≤ S32768x128.size a
  hwx0_7 : ∀ i : grid0.Coords, EltTy.bits .f32 = 32 ∨ (Rect.block (s := S32768x128) S512x128.size (cc0_transform_7 i) (hinb0_7 i)).WholeWords (EltTy.packing .f32)

variable [Facts₀]

def dot_S512x3072_S128x3072_S512x128_1_1_0_0_n_n : DotDims S512x3072 S128x3072 S512x128 where
  lhsContracting := [1]
  rhsContracting := [1]
  lhsNonContracting := [0]
  rhsNonContracting := [0]
  lhsBatch := []
  rhsBatch := []
  wf := dot_S512x3072_S128x3072_S512x128_1_1_0_0_n_n_wf
def dot_S512x6_S128x6_S512x128_1_1_0_0_n_n : DotDims S512x6 S128x6 S512x128 where
  lhsContracting := [1]
  rhsContracting := [1]
  lhsNonContracting := [0]
  rhsNonContracting := [0]
  lhsBatch := []
  rhsBatch := []
  wf := dot_S512x6_S128x6_S512x128_1_1_0_0_n_n_wf
def dot_S512x4_S128x4_S512x128_1_1_0_0_n_n : DotDims S512x4 S128x4 S512x128 where
  lhsContracting := [1]
  rhsContracting := [1]
  lhsNonContracting := [0]
  rhsNonContracting := [0]
  lhsBatch := []
  rhsBatch := []
  wf := dot_S512x4_S128x4_S512x128_1_1_0_0_n_n_wf
def dot_S512x51_S128x51_S512x128_1_1_0_0_n_n : DotDims S512x51 S128x51 S512x128 where
  lhsContracting := [1]
  rhsContracting := [1]
  lhsNonContracting := [0]
  rhsNonContracting := [0]
  lhsBatch := []
  rhsBatch := []
  wf := dot_S512x51_S128x51_S512x128_1_1_0_0_n_n_wf

abbrev win0_0 : Pipeline.Window sig grid0 :=
  Pipeline.Window.ofSpec (Memref.whole main_v0) S512x3072.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x6.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x51.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x3133.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S512x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16x2048x3072 : Shape := ⟨3, ![16, 2048, 3072]⟩
abbrev S16x2048x6 : Shape := ⟨3, ![16, 2048, 6]⟩
abbrev S16x2048x4 : Shape := ⟨3, ![16, 2048, 4]⟩
abbrev S16x2048x17x3 : Shape := ⟨4, ![16, 2048, 17, 3]⟩
abbrev S16x2048 : Shape := ⟨2, ![16, 2048]⟩
abbrev S128x3133 : Shape := ⟨2, ![128, 3133]⟩
abbrev S128 : Shape := ⟨1, ![128]⟩
abbrev S16x2048x51 : Shape := ⟨3, ![16, 2048, 51]⟩
abbrev S16x2048x3133 : Shape := ⟨3, ![16, 2048, 3133]⟩
abbrev S16x2048x128 : Shape := ⟨3, ![16, 2048, 128]⟩
abbrev S1x1x128 : Shape := ⟨3, ![1, 1, 128]⟩
abbrev S16x2048x1 : Shape := ⟨3, ![16, 2048, 1]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S16x2048x3072, .f32⟩
  | .hbm, ⟨1, _⟩ => ⟨S16x2048x6, .f32⟩
  | .hbm, ⟨2, _⟩ => ⟨S16x2048x4, .f32⟩
  | .hbm, ⟨3, _⟩ => ⟨S16x2048x17x3, .f32⟩
  | .hbm, ⟨4, _⟩ => ⟨S16x2048, .i1⟩
  | .hbm, ⟨5, _⟩ => ⟨S128x3133, .f32⟩
  | .hbm, ⟨6, _⟩ => ⟨S128, .f32⟩
  | .hbm, ⟨7, _⟩ => ⟨S16x2048x51, .f32⟩
  | .hbm, ⟨8, _⟩ => ⟨S16x2048x3133, .f32⟩
  | .hbm, ⟨9, _⟩ => ⟨S16x2048x128, .f32⟩
  | .hbm, ⟨10, _⟩ => ⟨S1x1x128, .f32⟩
  | .hbm, ⟨11, _⟩ => ⟨S16x2048x128, .f32⟩
  | .hbm, ⟨12, _⟩ => ⟨S16x2048x128, .f32⟩
  | .hbm, ⟨13, _⟩ => ⟨S16x2048x1, .i1⟩
  | .hbm, ⟨14, _⟩ => ⟨S_, .f32⟩
  | .hbm, ⟨15, _⟩ => ⟨S16x2048x128, .f32⟩
  | .hbm, ⟨16, _⟩ => ⟨S16x2048x128, .i1⟩
  | .hbm, ⟨17, _⟩ => ⟨S16x2048x128, .f32⟩
  | _, _ => ⟨S16x2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_call0_v0 : Ref sig .tc := ⟨.hbm, 16, rfl⟩
abbrev main_v8 : Ref sig .tc := ⟨.hbm, 17, rfl⟩

abbrev nD : Nat := 1
abbrev τ : Topo := Topo.v7x

variable {F : FTy → Type} [FloatOps F]

class Facts₀ : Prop where
  shapeCasts_S16x2048x17x3_S16x2048x51 : S16x2048x17x3.ShapeCasts S16x2048x51
  concatenates_S16x2048x3072_S16x2048x6_S16x2048x4_S16x2048x51_S16x2048x3133_d2 : Shape.Concatenates [S16x2048x3072, S16x2048x6, S16x2048x4, S16x2048x51] S16x2048x3133 2
  bcast_S128_S1x1x128_2 : S128.BroadcastsInDim S1x1x128 (![2] : Fin 1 → Fin S1x1x128.rank)
  bcast_S1x1x128_S16x2048x128_0_1_2 : S1x1x128.BroadcastsInDim S16x2048x128 (![0, 1, 2] : Fin 3 → Fin S16x2048x128.rank)
  bcast_S16x2048_S16x2048x1_0_1 : S16x2048.BroadcastsInDim S16x2048x1 (![0, 1] : Fin 2 → Fin S16x2048x1.rank)
  bcast_S_S16x2048x128 : S_.BroadcastsInDim S16x2048x128 (![] : Fin 0 → Fin S16x2048x128.rank)
  bcast_S16x2048x1_S16x2048x128_0_1_2 : S16x2048x1.BroadcastsInDim S16x2048x128 (![0, 1, 2] : Fin 3 → Fin S16x2048x128.rank)
  dot_S16x2048x3133_S128x3133_S16x2048x128_2_1_01_0_n_n_wf : DotDims.WF S16x2048x3133 S128x3133 S16x2048x128 [2] [1] [0, 1] [0] [] []

variable [Facts₀]

def dot_S16x2048x3133_S128x3133_S16x2048x128_2_1_01_0_n_n : DotDims S16x2048x3133 S128x3133 S16x2048x128 where
  lhsContracting := [2]
  rhsContracting := [1]
  lhsNonContracting := [0, 1]
  rhsNonContracting := [0]
  lhsBatch := []
  rhsBatch := []
  wf := dot_S16x2048x3133_S128x3133_S16x2048x128_2_1_01_0_n_n_wf

class Facts : Prop extends Facts₀ where

variable [Facts]
-- ==== Proof.Spec.lean ====
/-
  The mathematics of the masked linear projection, with no program in sight.

  A token's feature row is four bands laid end to end — 3072 embedding entries, 6 visibility scores, 4 box
  coordinates, 51 keypoint numbers: 3133 in all — and one output entry is the dot product of that row with a row of
  the weight matrix, plus a bias, kept where the token's mask bit is set and zero elsewhere. Two ways of writing it
  meet here. One concatenates the bands and takes ONE dot product over the 3133 positions, then SELECTS between the
  sum and zero by the mask bit. The other takes FOUR dot products, one per band against the matching stretch of the
  weight row, adds them, and MULTIPLIES by the mask bit read as the number 0 or 1. On the extended reals both are the
  same value: a sum over positions 0 … 3132 splits at 3072, 3078 and 3082 into the four bands' sums (only
  commutativity and associativity of addition are used, so infinities do no harm), and a product with 0 is 0 and
  with 1 is the other factor for EVERY extended real, so no finiteness is needed for the mask either.
-/
import Idealize.ShloMosaic.PureOps.Ideal.Laws
import Idealize.ShloMosaic.Lib.ValueIdx

noncomputable section

namespace Cert.MaskedProjection

open Idealize.ShloMosaic Idealize.ShloMosaic.ValueIdx

/-! ## A sum over consecutive positions, cut in two and in four -/

/-- A sum over `n = a + b` consecutive positions is the sum over the first `a` plus the sum over the last `b`. -/
theorem sum_fin_cut {M : Type} [AddCommMonoid M] (a b n : ℕ) (h : a + b = n) (f : Fin n → M) :
    ∑ k, f k = ∑ k : Fin a, f ⟨k.val, Nat.lt_of_lt_of_le k.isLt (h ▸ Nat.le_add_right a b)⟩
      + ∑ k : Fin b, f ⟨a + k.val, h ▸ Nat.add_lt_add_left k.isLt a⟩ := by
  subst h
  rw [Fin.sum_univ_add]
  rfl

/-- The 3133 positions of a feature row are the four bands laid end to end: a sum over them is the four bands' sums. -/
theorem sum_bands {M : Type} [AddCommMonoid M] (f : Fin 3133 → M) :
    ∑ k, f k = ∑ k : Fin 3072, f ⟨k.val, by have := k.isLt; omega⟩ + ∑ k : Fin 6, f ⟨3072 + k.val, by have := k.isLt; omega⟩
      + ∑ k : Fin 4, f ⟨3078 + k.val, by have := k.isLt; omega⟩ + ∑ k : Fin 51, f ⟨3082 + k.val, by have := k.isLt; omega⟩ := by
  rw [sum_fin_cut 3082 51 3133 rfl f, sum_fin_cut 3078 4 3082 rfl, sum_fin_cut 3072 6 3078 rfl]

/-! ## One output entry -/

/-- The four bands' dot products with the matching stretches of a weight row, added. -/
def rowDot (emb : Fin 3072 → EReal) (vis : Fin 6 → EReal) (box : Fin 4 → EReal) (kpt : Fin 51 → EReal) (w : Fin 3133 → EReal) : EReal :=
  ∑ k : Fin 3072, emb k * w ⟨k.val, by have := k.isLt; omega⟩ + ∑ k : Fin 6, vis k * w ⟨3072 + k.val, by have := k.isLt; omega⟩
    + ∑ k : Fin 4, box k * w ⟨3078 + k.val, by have := k.isLt; omega⟩ + ∑ k : Fin 51, kpt k * w ⟨3082 + k.val, by have := k.isLt; omega⟩

/-- One output entry: the row's projection plus the bias, times the mask read as a number. -/
def token (emb : Fin 3072 → EReal) (vis : Fin 6 → EReal) (box : Fin 4 → EReal) (kpt : Fin 51 → EReal) (w : Fin 3133 → EReal)
    (bias maskf : EReal) : EReal :=
  (rowDot emb vis box kpt w + bias) * maskf

/-- ONE dot product over the concatenated row is the four bands' dot products added, whenever the concatenated row
    reads each band at its stretch of positions. -/
theorem dot_cat_eq_rowDot (cat : Fin 3133 → EReal) (emb : Fin 3072 → EReal) (vis : Fin 6 → EReal) (box : Fin 4 → EReal)
    (kpt : Fin 51 → EReal) (w : Fin 3133 → EReal)
    (h0 : ∀ k : Fin 3072, cat ⟨k.val, by have := k.isLt; omega⟩ = emb k)
    (h1 : ∀ k : Fin 6, cat ⟨3072 + k.val, by have := k.isLt; omega⟩ = vis k)
    (h2 : ∀ k : Fin 4, cat ⟨3078 + k.val, by have := k.isLt; omega⟩ = box k)
    (h3 : ∀ k : Fin 51, cat ⟨3082 + k.val, by have := k.isLt; omega⟩ = kpt k) :
    ∑ k, cat k * w k = rowDot emb vis box kpt w := by
  rw [sum_bands (fun k => cat k * w k)]
  unfold rowDot
  simp only [h0, h1, h2, h3]

/-- Selecting between a value and zero by a bit is multiplying the value by the bit read as the number 0 or 1 — on
    every extended real, the infinities included (`x * 0 = 0` there too). -/
theorem select_zero_eq_mul (c : BitVec 1) (x : EReal) :
    Scalar.select c x (Ideal.ofBits .f32 0x00000000#32) = x * (((c.toNat : ℝ)) : EReal) := by
  rw [Ideal.ofBits_zero_f32]
  rcases (by decide : ∀ c : BitVec 1, c = 0#1 ∨ c = 1#1) c with rfl | rfl
  · rw [select_zero]; simp
  · rw [select_one]; simp

/-! ## The whole result -/

/-- The result at batch `b`, token `n`, output feature `t`, from the seven argument arrays: the token's four feature
    bands (the keypoints' 17 × 3 numbers read in row-major order as 51) against row `t` of the weights, plus bias `t`,
    times the token's mask bit. -/
def tokenAt (emb : (⟨3, ![16, 2048, 3072]⟩ : Shape).Idx → EReal) (vis : (⟨3, ![16, 2048, 6]⟩ : Shape).Idx → EReal)
    (box : (⟨3, ![16, 2048, 4]⟩ : Shape).Idx → EReal) (kpt : (⟨4, ![16, 2048, 17, 3]⟩ : Shape).Idx → EReal)
    (mask : (⟨2, ![16, 2048]⟩ : Shape).Idx → BitVec 1) (W : (⟨2, ![128, 3133]⟩ : Shape).Idx → EReal)
    (bias : (⟨1, ![128]⟩ : Shape).Idx → EReal) (b : Fin 16) (n : Fin 2048) (t : Fin 128) : EReal :=
  token (fun k => emb (ix3 b n k)) (fun k => vis (ix3 b n k)) (fun k => box (ix3 b n k))
    (fun k => kpt (ix4 b n (⟨k.val / 3, by have := k.isLt; omega⟩ : Fin 17) (⟨k.val % 3, by omega⟩ : Fin 3)))
    (fun k => W (ix2 t k)) (bias (ix1 t)) ((((mask (ix2 b n)).toNat : ℝ)) : EReal)

/-- The result array. -/
def tokens (emb : (⟨3, ![16, 2048, 3072]⟩ : Shape).Idx → EReal) (vis : (⟨3, ![16, 2048, 6]⟩ : Shape).Idx → EReal)
    (box : (⟨3, ![16, 2048, 4]⟩ : Shape).Idx → EReal) (kpt : (⟨4, ![16, 2048, 17, 3]⟩ : Shape).Idx → EReal)
    (mask : (⟨2, ![16, 2048]⟩ : Shape).Idx → BitVec 1) (W : (⟨2, ![128, 3133]⟩ : Shape).Idx → EReal)
    (bias : (⟨1, ![128]⟩ : Shape).Idx → EReal) : (⟨3, ![16, 2048, 128]⟩ : Shape).Idx → EReal :=
  fun i => tokenAt emb vis box kpt mask W bias (i 0) (i 1) (i 2)

theorem tokens_apply (emb : (⟨3, ![16, 2048, 3072]⟩ : Shape).Idx → EReal) (vis : (⟨3, ![16, 2048, 6]⟩ : Shape).Idx → EReal)
    (box : (⟨3, ![16, 2048, 4]⟩ : Shape).Idx → EReal) (kpt : (⟨4, ![16, 2048, 17, 3]⟩ : Shape).Idx → EReal)
    (mask : (⟨2, ![16, 2048]⟩ : Shape).Idx → BitVec 1) (W : (⟨2, ![128, 3133]⟩ : Shape).Idx → EReal)
    (bias : (⟨1, ![128]⟩ : Shape).Idx → EReal) (b : Fin 16) (n : Fin 2048) (t : Fin 128) :
    tokens emb vis box kpt mask W bias (ix3 b n t) = tokenAt emb vis box kpt mask W bias b n t := rfl

end Cert.MaskedProjection

end
-- ==== Proof.RefTokens.lean ====
/-
  The reference's result, entry by entry, is the specification's.

  The reference flattens each token's 17 × 3 keypoint numbers to 51 in row-major order, lays the four bands end to
  end as one row of 3133, contracts that row with each weight row, adds the bias, and selects between the sum and zero
  by the token's mask bit (broadcast along the 128 output features). Read at entry (b, n, t): position k of the
  concatenated row of token (b, n) is the embedding's entry k for k < 3072, then the visibility score k − 3072, the
  box coordinate k − 3078 and keypoint number k − 3082 (keypoint (k − 3082) / 3, component (k − 3082) mod 3); the
  one dot product over 3133 positions is therefore the four bands' dot products added, and the selection is the
  product with the mask bit as a number.
-/
import proofs.«172497_g48576080118602_cont_8to1_c_783_15_alg».proof.Proof.Gen.ReferenceIdeal.Read
import proofs.«172497_g48576080118602_cont_8to1_c_783_15_alg».proof.Proof.Spec

noncomputable section

namespace Cert.ReferenceIdeal.RefValue

open Idealize.ShloMosaic Idealize.ShloMosaic.ValueIdx Cert.ReferenceIdeal Cert.ReferenceIdeal.Gen Cert.ReferenceIdeal.Read
  Cert.MaskedProjection

/-- Keypoint number k of token (b, n), in the flattened row, is component k mod 3 of keypoint k / 3. -/
theorem keypoint_index (b : Fin 16) (n : Fin 2048) (k : Fin 51) :
    idx_main_v0 (ix3 b n k) = ix4 b n (⟨k.val / 3, by have := k.isLt; omega⟩ : Fin 17) (⟨k.val % 3, by omega⟩ : Fin 3) := by
  funext a
  apply Fin.ext
  have hb := b.isLt
  have hn := n.isLt
  have hk := k.isLt
  match a with
  | ⟨0, _⟩ => show ((b.val * 2048 + n.val) * 51 + k.val) / 104448 = b.val; omega
  | ⟨1, _⟩ => show ((b.val * 2048 + n.val) * 51 + k.val) / 51 % 2048 = n.val; omega
  | ⟨2, _⟩ => show ((b.val * 2048 + n.val) * 51 + k.val) / 3 % 17 = k.val / 3; omega
  | ⟨3, _⟩ => show ((b.val * 2048 + n.val) * 51 + k.val) % 3 = k.val % 3; omega

section Row

variable (x0 : (⟨S16x2048x3072, .f32⟩ : BufTy).Contents (Elt Ideal)) (x1 : (⟨S16x2048x6, .f32⟩ : BufTy).Contents (Elt Ideal))
  (x2 : (⟨S16x2048x4, .f32⟩ : BufTy).Contents (Elt Ideal)) (x3 : (⟨S16x2048x17x3, .f32⟩ : BufTy).Contents (Elt Ideal))
  (b : Fin 16) (n : Fin 2048)

/-- The concatenated row's first 3072 positions are the embedding's. -/
theorem cat_emb (k : Fin 3072) :
    val_main_v1 (F := Ideal) x0 x1 x2 x3 (ix3 b n (⟨k.val, by have := k.isLt; omega⟩ : Fin 3133)) = x0 (ix3 b n k) := by
  unfold val_main_v1
  refine concatenate_apply_piece (2 : Fin S16x2048x3133.rank) _ _ _ 0 (by show 0 < 4; decide) S16x2048x3072 x0 rfl rfl 0 rfl (ix3 b n k) ?_ ?_
  · intro a ha
    match a with
    | ⟨0, _⟩ => rfl
    | ⟨1, _⟩ => rfl
    | ⟨2, _⟩ => exact absurd rfl ha
  · exact Nat.zero_add _

/-- Positions 3072 … 3077 are the visibility scores. -/
theorem cat_vis (k : Fin 6) :
    val_main_v1 (F := Ideal) x0 x1 x2 x3 (ix3 b n (⟨3072 + k.val, by have := k.isLt; omega⟩ : Fin 3133)) = x1 (ix3 b n k) := by
  unfold val_main_v1
  refine concatenate_apply_piece (2 : Fin S16x2048x3133.rank) _ _ _ 1 (by show 1 < 4; decide) S16x2048x6 x1 rfl rfl 3072 rfl (ix3 b n k) ?_ ?_
  · intro a ha
    match a with
    | ⟨0, _⟩ => rfl
    | ⟨1, _⟩ => rfl
    | ⟨2, _⟩ => exact absurd rfl ha
  · rfl

/-- Positions 3078 … 3081 are the box coordinates. -/
theorem cat_box (k : Fin 4) :
    val_main_v1 (F := Ideal) x0 x1 x2 x3 (ix3 b n (⟨3078 + k.val, by have := k.isLt; omega⟩ : Fin 3133)) = x2 (ix3 b n k) := by
  unfold val_main_v1
  refine concatenate_apply_piece (2 : Fin S16x2048x3133.rank) _ _ _ 2 (by show 2 < 4; decide) S16x2048x4 x2 rfl rfl 3078 rfl (ix3 b n k) ?_ ?_
  · intro a ha
    match a with
    | ⟨0, _⟩ => rfl
    | ⟨1, _⟩ => rfl
    | ⟨2, _⟩ => exact absurd rfl ha
  · rfl

/-- Positions 3082 … 3132 are the keypoint numbers, keypoint by keypoint. -/
theorem cat_kpt (k : Fin 51) :
    val_main_v1 (F := Ideal) x0 x1 x2 x3 (ix3 b n (⟨3082 + k.val, by have := k.isLt; omega⟩ : Fin 3133))
      = x3 (ix4 b n (⟨k.val / 3, by have := k.isLt; omega⟩ : Fin 17) (⟨k.val % 3, by omega⟩ : Fin 3)) := by
  unfold val_main_v1
  refine (concatenate_apply_piece (2 : Fin S16x2048x3133.rank) _ _ _ 3 (by show 3 < 4; decide) S16x2048x51 (val_main_v0 (F := Ideal) x3) rfl rfl 3082 rfl
    (ix3 b n k) ?_ ?_).trans ?_
  · intro a ha
    match a with
    | ⟨0, _⟩ => rfl
    | ⟨1, _⟩ => rfl
    | ⟨2, _⟩ => exact absurd rfl ha
  · rfl
  · rw [val_main_v0_apply, keypoint_index]

end Row

/-- The reference's result is the specification's array, of the same seven arguments. -/
theorem result_eq_tokens (x0 : (⟨S16x2048x3072, .f32⟩ : BufTy).Contents (Elt Ideal)) (x1 : (⟨S16x2048x6, .f32⟩ : BufTy).Contents (Elt Ideal))
    (x2 : (⟨S16x2048x4, .f32⟩ : BufTy).Contents (Elt Ideal)) (x3 : (⟨S16x2048x17x3, .f32⟩ : BufTy).Contents (Elt Ideal))
    (x4 : (⟨S16x2048, .i1⟩ : BufTy).Contents (Elt Ideal)) (x5 : (⟨S128x3133, .f32⟩ : BufTy).Contents (Elt Ideal))
    (x6 : (⟨S128, .f32⟩ : BufTy).Contents (Elt Ideal)) :
    val_main_v8 (F := Ideal) x0 x1 x2 x3 x4 x5 x6 = tokens x0 x1 x2 x3 x4 x5 x6 := by
  funext i
  obtain ⟨b, n, t, rfl⟩ : ∃ (b : Fin 16) (n : Fin 2048) (t : Fin 128), i = ix3 b n t := ⟨i 0, i 1, i 2, eq_ix3 i⟩
  rw [tokens_apply, val_main_v8_apply, val_main_call0_v0_apply, val_main_v6_apply, val_main_v5_apply, val_main_v2_apply,
    val_main_v4_apply, val_main_v3_apply, val_main_v7_apply, val_main_cst_apply]
  have i1 : idx_main_v6 (idx_main_call0_v0 (ix3 b n t)) = ix2 b n :=
    funext fun a => Fin.ext (by match a with | ⟨0, _⟩ => rfl | ⟨1, _⟩ => rfl)
  have i2 : idx_main_v3 (idx_main_v4 (ix3 b n t)) = ix1 t :=
    funext fun a => Fin.ext (by match a with | ⟨0, _⟩ => rfl)
  have i3 : ∀ k : Fin 3133, lidx_main_v2 (ix3 b n t) k = ix3 b n k := fun k =>
    funext fun a => Fin.ext (by match a with | ⟨0, _⟩ => rfl | ⟨1, _⟩ => rfl | ⟨2, _⟩ => rfl)
  have i4 : ∀ k : Fin 3133, ridx_main_v2 (ix3 b n t) k = ix2 t k := fun k =>
    funext fun a => Fin.ext (by match a with | ⟨0, _⟩ => rfl | ⟨1, _⟩ => rfl)
  rw [i1, i2]
  simp only [i3, i4]
  refine (select_zero_eq_mul _ _).trans ?_
  unfold tokenAt token
  exact congrArg₂ (fun u v : EReal => u * v)
    (congrArg₂ (fun u v : EReal => u + v)
      (dot_cat_eq_rowDot (fun k => val_main_v1 (F := Ideal) x0 x1 x2 x3 (ix3 b n k)) _ _ _ _ (fun k => x5 (ix2 t k))
        (cat_emb x0 x1 x2 x3 b n) (cat_vis x0 x1 x2 x3 b n) (cat_box x0 x1 x2 x3 b n) (cat_kpt x0 x1 x2 x3 b n)) rfl) rfl

end Cert.ReferenceIdeal.RefValue

end
-- ==== Proof.Payload.lean ====
/-
  What the kernel body stores, read at one entry.

  At a grid point the body holds a block of 512 token rows — their four feature bands as four matrices with 3072, 6, 4
  and 51 columns —, the whole weight matrix (128 rows of 3133), the bias as one row of 128, and the 512 tokens' mask
  numbers as one lane row. Entry (p, q) of what it stores is: the four matrix products' entries (p, q) — each band's
  row p against the matching stretch of weight row q, the weight matrix being contracted on ITS last axis —, added in
  order, plus bias entry q, times mask number p. Each matrix product accumulates onto a zero matrix, so its entry is
  just the sum of products over the band's columns; the stretch of the weight row a band meets starts at column 0,
  3072, 3078 or 3082. The mask row reaches entry (p, q) through a cast that drops a unit axis, a transposition of the
  row into a column and a broadcast of the column along the 128 lanes: it is mask number p for every q.
-/
import proofs.«172497_g48576080118602_cont_8to1_c_783_15_alg».proof.Proof.Gen.KernelIdeal.Skeleton
import proofs.«172497_g48576080118602_cont_8to1_c_783_15_alg».proof.Proof.Spec
import Idealize.ShloMosaic.Lib.ValueLayout
import Idealize.ShloMosaic.Lib.Pipeline.Value
import Idealize.ShloMosaic.PureOps.Ideal.Laws

noncomputable section

namespace Cert.KernelIdeal.Payload

open Idealize.ShloMosaic Idealize.ShloMosaic.ValueIdx Cert.KernelIdeal Cert.KernelIdeal.Gen Cert.MaskedProjection

/-! ## A matrix product whose right operand is contracted on its last axis, at an entry -/

/-- The left operand's row coordinate at output entry `j` is `j`'s row. -/
theorem lhs_row (K : ℕ) (j : (⟨2, ![512, 128]⟩ : Shape).Idx) (c : (DotDims.transposedRhs 512 K 128).contr.Idx) :
    ((DotDims.transposedRhs 512 K 128).lhsIdx j c 0).val = (j 0).val := by
  unfold DotDims.lhsIdx
  rw [dif_neg (show ¬(0 : Fin (⟨2, ![512, K]⟩ : Shape).rank) ∈ (DotDims.transposedRhs 512 K 128).lhsBatch from List.not_mem_nil),
    dif_pos (show (0 : Fin (⟨2, ![512, K]⟩ : Shape).rank) ∈ (DotDims.transposedRhs 512 K 128).lhsNonContracting from List.mem_singleton.2 rfl)]
  rfl

/-- The right operand's row coordinate at output entry `j` is `j`'s column. -/
theorem rhs_row (K : ℕ) (j : (⟨2, ![512, 128]⟩ : Shape).Idx) (c : (DotDims.transposedRhs 512 K 128).contr.Idx) :
    ((DotDims.transposedRhs 512 K 128).rhsIdx j c 0).val = (j 1).val := by
  unfold DotDims.rhsIdx
  rw [dif_neg (show ¬(0 : Fin (⟨2, ![128, K]⟩ : Shape).rank) ∈ (DotDims.transposedRhs 512 K 128).rhsBatch from List.not_mem_nil),
    dif_pos (show (0 : Fin (⟨2, ![128, K]⟩ : Shape).rank) ∈ (DotDims.transposedRhs 512 K 128).rhsNonContracting from List.mem_singleton.2 rfl)]
  rfl

/-- Rows of `l` (512 × K) against rows of `r` (128 × K), onto a zero accumulator: entry (p, q) is the sum over the K
    columns of `l p k · r q k`. -/
theorem matmul_rows_apply (K : ℕ) (D : DotDims ⟨2, ![512, K]⟩ ⟨2, ![128, K]⟩ ⟨2, ![512, 128]⟩)
    (hD : D = DotDims.transposedRhs 512 K 128)
    (l : FVec Ideal ⟨2, ![512, K]⟩ .f32) (r : FVec Ideal ⟨2, ![128, K]⟩ .f32) (p : Fin 512) (q : Fin 128) :
    matmul D none l r (constant (F := Ideal) ⟨2, ![512, 128]⟩ .f32 0x00000000#32) (ix2 p q)
      = ∑ k : Fin K, l (ix2 p k) * r (ix2 q k) := by
  subst hD
  refine (Ideal.matmul_constant_zero_apply (DotDims.transposedRhs 512 K 128) none l r (ix2 p q)).trans ?_
  rw [← Equiv.sum_comp (contrEquiv1 (DotDims.transposedRhs 512 K 128) K rfl rfl).symm]
  refine Finset.sum_congr rfl fun k _ => ?_
  have hk := contrEquiv1_symm_val (DotDims.transposedRhs 512 K 128) K rfl rfl k
  have el : (DotDims.transposedRhs 512 K 128).lhsIdx (ix2 p q) ((contrEquiv1 (DotDims.transposedRhs 512 K 128) K rfl rfl).symm k)
      = ix2 p k := funext fun a => Fin.ext (by
    match a with
    | ⟨0, _⟩ => exact lhs_row K _ _
    | ⟨1, _⟩ => exact ((DotDims.transposedRhs 512 K 128).lhsIdx_val_of_single rfl _ _).trans hk)
  have er : (DotDims.transposedRhs 512 K 128).rhsIdx (ix2 p q) ((contrEquiv1 (DotDims.transposedRhs 512 K 128) K rfl rfl).symm k)
      = ix2 q k := funext fun a => Fin.ext (by
    match a with
    | ⟨0, _⟩ => exact rhs_row K _ _
    | ⟨1, _⟩ => exact ((DotDims.transposedRhs 512 K 128).rhsIdx_val_of_single rfl _ _).trans hk)
  rw [el, er]

/-! ## A column broadcast along the lanes -/

/-- A 512 × 1 column broadcast to 512 × 128 reads, at (p, q), the column's entry p. -/
theorem broadcast_column_apply {α : Type} (v : (⟨2, ![512, 1]⟩ : Shape).Idx → α)
    (h : (⟨2, ![512, 1]⟩ : Shape).Broadcasts ⟨2, ![512, 128]⟩) (p : Fin 512) (q : Fin 128) :
    broadcastTo ⟨2, ![512, 128]⟩ v h (ix2 p q) = v (ix2 p (0 : Fin 1)) := by
  refine broadcastTo_apply v h (ix2 p q) (ix2 p (0 : Fin 1)) fun ax => ?_
  match ax with
  | ⟨0, _⟩ => show p.val = if (512 : ℕ) = 1 then 0 else p.val; rw [if_neg (by decide)]
  | ⟨1, _⟩ => show 0 = if (1 : ℕ) = 1 then 0 else q.val; rw [if_pos rfl]

/-! ## The stored block at an entry -/

/-- Entry (p, q) of the stored block: the token entry of row p's bands against weight row q, bias q and mask number p. -/
theorem stored_apply (v0 : Vec Ideal S128x3133 .f32) (v1 : Vec Ideal S512x3072 .f32) (v5 : Vec Ideal S512x6 .f32)
    (v10 : Vec Ideal S512x4 .f32) (v15 : Vec Ideal S512x51 .f32) (v20 : Vec Ideal S1x128 .f32) (v24 : Vec Ideal S1x1x512 .f32)
    (p : Fin 512) (q : Fin 128) :
    k0_pay1 (F := Ideal) v0 v1 v5 v10 v15 v20 v24 (ix2 p q)
      = token (fun k => v1 (ix2 p k)) (fun k => v5 (ix2 p k)) (fun k => v10 (ix2 p k)) (fun k => v15 (ix2 p k))
          (fun k => v0 (ix2 q k)) (v20 (ix2 (0 : Fin 1) q)) (v24 (ix3 (0 : Fin 1) (0 : Fin 1) p)) := by
  have e1 : matmul dot_S512x3072_S128x3072_S512x128_1_1_0_0_n_n none (shapeCast S512x3072 v1 shapeCasts_S512x3072_S512x3072)
        (extractStridedSlice S128x3072 ![0, 0] v0 slices_S128x3133_o0_0_S128x3072) (constant (F := Ideal) S512x128 .f32 0x00000000#32) (ix2 p q)
      = ∑ k : Fin 3072, v1 (ix2 p k) * v0 (ix2 q ⟨k.val, by have := k.isLt; omega⟩) :=
    (matmul_rows_apply 3072 _ rfl _ _ p q).trans (Finset.sum_congr rfl fun k _ => congrArg₂ (fun a b : EReal => a * b)
      (congrFun (shapeCast_self v1 shapeCasts_S512x3072_S512x3072) _)
      (slice2_axis1_apply 0 v0 slices_S128x3133_o0_0_S128x3072 q k ⟨k.val, by have := k.isLt; omega⟩ (Nat.zero_add _).symm))
  have e2 : matmul dot_S512x6_S128x6_S512x128_1_1_0_0_n_n none (shapeCast S512x6 v5 shapeCasts_S512x6_S512x6)
        (extractStridedSlice S128x6 ![0, 3072] v0 slices_S128x3133_o0_3072_S128x6) (constant (F := Ideal) S512x128 .f32 0x00000000#32) (ix2 p q)
      = ∑ k : Fin 6, v5 (ix2 p k) * v0 (ix2 q ⟨3072 + k.val, by have := k.isLt; omega⟩) :=
    (matmul_rows_apply 6 _ rfl _ _ p q).trans (Finset.sum_congr rfl fun k _ => congrArg₂ (fun a b : EReal => a * b)
      (congrFun (shapeCast_self v5 shapeCasts_S512x6_S512x6) _)
      (slice2_axis1_apply 3072 v0 slices_S128x3133_o0_3072_S128x6 q k ⟨3072 + k.val, by have := k.isLt; omega⟩ rfl))
  have e3 : matmul dot_S512x4_S128x4_S512x128_1_1_0_0_n_n none (shapeCast S512x4 v10 shapeCasts_S512x4_S512x4)
        (extractStridedSlice S128x4 ![0, 3078] v0 slices_S128x3133_o0_3078_S128x4) (constant (F := Ideal) S512x128 .f32 0x00000000#32) (ix2 p q)
      = ∑ k : Fin 4, v10 (ix2 p k) * v0 (ix2 q ⟨3078 + k.val, by have := k.isLt; omega⟩) :=
    (matmul_rows_apply 4 _ rfl _ _ p q).trans (Finset.sum_congr rfl fun k _ => congrArg₂ (fun a b : EReal => a * b)
      (congrFun (shapeCast_self v10 shapeCasts_S512x4_S512x4) _)
      (slice2_axis1_apply 3078 v0 slices_S128x3133_o0_3078_S128x4 q k ⟨3078 + k.val, by have := k.isLt; omega⟩ rfl))
  have e4 : matmul dot_S512x51_S128x51_S512x128_1_1_0_0_n_n none (shapeCast S512x51 v15 shapeCasts_S512x51_S512x51)
        (extractStridedSlice S128x51 ![0, 3082] v0 slices_S128x3133_o0_3082_S128x51) (constant (F := Ideal) S512x128 .f32 0x00000000#32) (ix2 p q)
      = ∑ k : Fin 51, v15 (ix2 p k) * v0 (ix2 q ⟨3082 + k.val, by have := k.isLt; omega⟩) :=
    (matmul_rows_apply 51 _ rfl _ _ p q).trans (Finset.sum_congr rfl fun k _ => congrArg₂ (fun a b : EReal => a * b)
      (congrFun (shapeCast_self v15 shapeCasts_S512x51_S512x51) _)
      (slice2_axis1_apply 3082 v0 slices_S128x3133_o0_3082_S128x51 q k ⟨3082 + k.val, by have := k.isLt; omega⟩ rfl))
  have eb : broadcastTo S512x128 (shapeCast S1x128 v20 shapeCasts_S1x128_S1x128) broadcasts_S1x128_S512x128 (ix2 p q)
      = v20 (ix2 (0 : Fin 1) q) :=
    (broadcastTo_1b_ab_apply _ broadcasts_S1x128_S512x128 p q).trans (congrFun (shapeCast_self v20 shapeCasts_S1x128_S1x128) _)
  have em : broadcastTo S512x128 (transpose S512x1 [1, 0] (shapeCast S1x512 v24 shapeCasts_S1x1x512_S1x512) transposes_S1x512_p1_0_S512x1)
        broadcasts_S512x1_S512x128 (ix2 p q) = v24 (ix3 (0 : Fin 1) (0 : Fin 1) p) :=
    (broadcast_column_apply _ broadcasts_S512x1_S512x128 p q).trans
      ((transpose_ix2_apply _ transposes_S1x512_p1_0_S512x1 p (0 : Fin 1)).trans
        (shapeCast_1ab_ab_apply v24 shapeCasts_S1x1x512_S1x512 (0 : Fin 1) p))
  unfold token rowDot
  exact congrArg₂ (fun a b : EReal => a * b)
    (congrArg₂ (fun a b : EReal => a + b)
      (congrArg₂ (fun a b : EReal => a + b)
        (congrArg₂ (fun a b : EReal => a + b)
          (congrArg₂ (fun a b : EReal => a + b) e1 e2) e3) e4) eb) em

end Cert.KernelIdeal.Payload

end
-- ==== Proof.Region.lean ====
/-
  The region's output array after the run, as one function of the arrays the region finds.

  The region sees the tokens as 32768 rows: the four feature bands as matrices of 32768 rows, the mask numbers as 64
  lane rows of 512, the weights whole and the bias as one row. Grid point g (of 64) works on rows 512·g … 512·g + 511:
  every row-blocked window's block index is (g, 0), the mask window's is (g, 0, 0), the weights' and the bias's (0, 0).
  So entry (p, q) of what point g writes back is the token entry of row 512·g + p against weight row q — the body's
  stored entry with each loaded block read where it sits in its array — and, the 64 output blocks tiling the 32768
  rows (row r lies in block r / 512), the output array ends holding that function of (r, q) everywhere. Row r's mask
  number is lane r mod 512 of lane row r / 512.
-/
import proofs.«172497_g48576080118602_cont_8to1_c_783_15_alg».proof.Proof.Gen.KernelIdeal.Frame
import proofs.«172497_g48576080118602_cont_8to1_c_783_15_alg».proof.Proof.Payload
import Idealize.ShloMosaic.Lib.Pipeline.Value

set_option maxRecDepth 16384

noncomputable section

namespace Cert.KernelIdeal.Region

open Idealize.ShloMosaic Idealize.ShloMosaic.TcCoe Idealize.SL.Sem Idealize.ShloMosaic.ValueIdx
open Idealize.ShloMosaic.Pipeline (Dat)
open Cert.KernelIdeal Cert.KernelIdeal.Gen Cert.MaskedProjection

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-! ## The region's function -/

/-- Where row `r`'s mask number sits among the 64 lane rows of 512. -/
def maskIdx (r : Fin 32768) : S64x1x512.Idx :=
  ix3 (⟨r.val / 512, by have := r.isLt; omega⟩ : Fin 64) (0 : Fin 1) (⟨r.val % 512, by omega⟩ : Fin 512)

/-- Entry (r, q) of the region's result, from the arrays the region finds. -/
def rowsAt (E : S32768x3072.Idx → EReal) (Vs : S32768x6.Idx → EReal) (Bx : S32768x4.Idx → EReal) (Kp : S32768x51.Idx → EReal)
    (Mk : S64x1x512.Idx → EReal) (W : S128x3133.Idx → EReal) (Bs : S1x128.Idx → EReal) (r : Fin 32768) (q : Fin 128) : EReal :=
  token (fun k => E (ix2 r k)) (fun k => Vs (ix2 r k)) (fun k => Bx (ix2 r k)) (fun k => Kp (ix2 r k)) (fun k => W (ix2 q k))
    (Bs (ix2 (0 : Fin 1) q)) (Mk (maskIdx r))

/-- The region's result array. -/
def rows (E : S32768x3072.Idx → EReal) (Vs : S32768x6.Idx → EReal) (Bx : S32768x4.Idx → EReal) (Kp : S32768x51.Idx → EReal)
    (Mk : S64x1x512.Idx → EReal) (W : S128x3133.Idx → EReal) (Bs : S1x128.Idx → EReal) : S32768x128.Idx → EReal :=
  fun i => rowsAt E Vs Bx Kp Mk W Bs (i 0) (i 1)

/-! ## Where each window's block sits -/

/-- The printed index maps, decided over the 64 grid points. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 3) = t.val ∧ win0_4.index t (1 : Fin 3) = 0 ∧ win0_4.index t (2 : Fin 3) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

theorem point_lt (t : Fin cfg0.N) : t.val < 64 := lt_of_lt_of_eq t.isLt N_0

/-- Row `p` of grid point `t`'s block is row 512·t + p of the array. -/
def rowOf (t : Fin cfg0.N) (p : Fin 512) : Fin 32768 :=
  ⟨t.val * 512 + p.val, by have := point_lt t; have := p.isLt; omega⟩

theorem block0_apply (c : Dev nD) (t : Fin cfg0.N) (p : Fin 512) (k : Fin 3072) :
    (iblk m c 0 t : Vec Ideal S512x3072 .f32) (ix2 p k) = (V m c main_v0 : S32768x3072.Idx → EReal) (ix2 (rowOf t p) k) := by
  obtain ⟨e0, e1, -⟩ := idx_facts t
  unfold iblk
  rw [View.read_apply]
  show (V m c main_v0 : S32768x3072.Idx → EReal) _ = (V m c main_v0 : S32768x3072.Idx → EReal) _
  refine congrArg (V m c main_v0 : S32768x3072.Idx → EReal) ?_
  funext a
  apply Fin.ext
  match a with
  | ⟨0, _⟩ => show win0_0.index t (0 : Fin 2) * 512 + 1 * p.val = t.val * 512 + p.val; rw [e0]; omega
  | ⟨1, _⟩ => show win0_0.index t (1 : Fin 2) * 3072 + 1 * k.val = k.val; rw [e1]; omega

theorem block1_apply (c : Dev nD) (t : Fin cfg0.N) (p : Fin 512) (k : Fin 6) :
    (iblk m c 1 t : Vec Ideal S512x6 .f32) (ix2 p k) = (V m c main_v1 : S32768x6.Idx → EReal) (ix2 (rowOf t p) k) := by
  obtain ⟨-, -, e0, e1, -⟩ := idx_facts t
  unfold iblk
  rw [View.read_apply]
  show (V m c main_v1 : S32768x6.Idx → EReal) _ = (V m c main_v1 : S32768x6.Idx → EReal) _
  refine congrArg (V m c main_v1 : S32768x6.Idx → EReal) ?_
  funext a
  apply Fin.ext
  match a with
  | ⟨0, _⟩ => show win0_1.index t (0 : Fin 2) * 512 + 1 * p.val = t.val * 512 + p.val; rw [e0]; omega
  | ⟨1, _⟩ => show win0_1.index t (1 : Fin 2) * 6 + 1 * k.val = k.val; rw [e1]; omega

theorem block2_apply (c : Dev nD) (t : Fin cfg0.N) (p : Fin 512) (k : Fin 4) :
    (iblk m c 2 t : Vec Ideal S512x4 .f32) (ix2 p k) = (V m c main_v2 : S32768x4.Idx → EReal) (ix2 (rowOf t p) k) := by
  obtain ⟨-, -, -, -, e0, e1, -⟩ := idx_facts t
  unfold iblk
  rw [View.read_apply]
  show (V m c main_v2 : S32768x4.Idx → EReal) _ = (V m c main_v2 : S32768x4.Idx → EReal) _
  refine congrArg (V m c main_v2 : S32768x4.Idx → EReal) ?_
  funext a
  apply Fin.ext
  match a with
  | ⟨0, _⟩ => show win0_2.index t (0 : Fin 2) * 512 + 1 * p.val = t.val * 512 + p.val; rw [e0]; omega
  | ⟨1, _⟩ => show win0_2.index t (1 : Fin 2) * 4 + 1 * k.val = k.val; rw [e1]; omega

theorem block3_apply (c : Dev nD) (t : Fin cfg0.N) (p : Fin 512) (k : Fin 51) :
    (iblk m c 3 t : Vec Ideal S512x51 .f32) (ix2 p k) = (V m c main_v3 : S32768x51.Idx → EReal) (ix2 (rowOf t p) k) := by
  obtain ⟨-, -, -, -, -, -, e0, e1, -⟩ := idx_facts t
  unfold iblk
  rw [View.read_apply]
  show (V m c main_v3 : S32768x51.Idx → EReal) _ = (V m c main_v3 : S32768x51.Idx → EReal) _
  refine congrArg (V m c main_v3 : S32768x51.Idx → EReal) ?_
  funext a
  apply Fin.ext
  match a with
  | ⟨0, _⟩ => show win0_3.index t (0 : Fin 2) * 512 + 1 * p.val = t.val * 512 + p.val; rw [e0]; omega
  | ⟨1, _⟩ => show win0_3.index t (1 : Fin 2) * 51 + 1 * k.val = k.val; rw [e1]; omega

/-- The mask window's block at point `t` is lane row `t`: its lane `p` is row 512·t + p's mask number. -/
theorem block4_apply (c : Dev nD) (t : Fin cfg0.N) (p : Fin 512) :
    (iblk m c 4 t : Vec Ideal S1x1x512 .f32) (ix3 (0 : Fin 1) (0 : Fin 1) p) = (V m c main_v5 : S64x1x512.Idx → EReal) (maskIdx (rowOf t p)) := by
  obtain ⟨-, -, -, -, -, -, -, -, e0, e1, e2, -⟩ := idx_facts t
  have ht := point_lt t
  have hp := p.isLt
  unfold iblk
  rw [View.read_apply]
  show (V m c main_v5 : S64x1x512.Idx → EReal) _ = (V m c main_v5 : S64x1x512.Idx → EReal) _
  refine congrArg (V m c main_v5 : S64x1x512.Idx → EReal) ?_
  funext a
  apply Fin.ext
  match a with
  | ⟨0, _⟩ => show win0_4.index t (0 : Fin 3) * 1 + 1 * 0 = (t.val * 512 + p.val) / 512; rw [e0]; omega
  | ⟨1, _⟩ => show win0_4.index t (1 : Fin 3) * 1 + 1 * 0 = 0; rw [e1]
  | ⟨2, _⟩ => show win0_4.index t (2 : Fin 3) * 512 + 1 * p.val = (t.val * 512 + p.val) % 512; rw [e2]; omega

/-- The weights' window holds the whole weight matrix at every point. -/
theorem block5_apply (c : Dev nD) (t : Fin cfg0.N) (q : Fin 128) (k : Fin 3133) :
    (iblk m c 5 t : Vec Ideal S128x3133 .f32) (ix2 q k) = (V m c main_arg5 : S128x3133.Idx → EReal) (ix2 q k) := by
  obtain ⟨-, -, -, -, -, -, -, -, -, -, -, e0, e1, -⟩ := idx_facts t
  unfold iblk
  rw [View.read_apply]
  show (V m c main_arg5 : S128x3133.Idx → EReal) _ = (V m c main_arg5 : S128x3133.Idx → EReal) _
  refine congrArg (V m c main_arg5 : S128x3133.Idx → EReal) ?_
  funext a
  apply Fin.ext
  match a with
  | ⟨0, _⟩ => show win0_5.index t (0 : Fin 2) * 128 + 1 * q.val = q.val; rw [e0]; omega
  | ⟨1, _⟩ => show win0_5.index t (1 : Fin 2) * 3133 + 1 * k.val = k.val; rw [e1]; omega

/-- The bias window holds the whole bias row at every point. -/
theorem block6_apply (c : Dev nD) (t : Fin cfg0.N) (q : Fin 128) :
    (iblk m c 6 t : Vec Ideal S1x128 .f32) (ix2 (0 : Fin 1) q) = (V m c main_v6 : S1x128.Idx → EReal) (ix2 (0 : Fin 1) q) := by
  obtain ⟨-, -, -, -, -, -, -, -, -, -, -, -, -, e0, e1, -⟩ := idx_facts t
  unfold iblk
  rw [View.read_apply]
  show (V m c main_v6 : S1x128.Idx → EReal) _ = (V m c main_v6 : S1x128.Idx → EReal) _
  refine congrArg (V m c main_v6 : S1x128.Idx → EReal) ?_
  funext a
  apply Fin.ext
  match a with
  | ⟨0, _⟩ => show win0_6.index t (0 : Fin 2) * 1 + 1 * 0 = 0; rw [e0]
  | ⟨1, _⟩ => show win0_6.index t (1 : Fin 2) * 128 + 1 * q.val = q.val; rw [e1]; omega

/-! ## What a point writes back -/

/-- What the body leaves in the output's staging buffer is its one store's value of the loaded blocks. -/
theorem out_eq (x0 : Vec Ideal S512x3072 .f32) (x1 : Vec Ideal S512x6 .f32) (x2 : Vec Ideal S512x4 .f32) (x3 : Vec Ideal S512x51 .f32)
    (x4 : Vec Ideal S1x1x512 .f32) (x5 : Vec Ideal S128x3133 .f32) (x6 : Vec Ideal S1x128 .f32) :
    out0_7 x0 x1 x2 x3 x4 x5 x6 = k0_pay1 x5 x0 x1 x2 x3 x6 x4 := by
  unfold out0_7
  rw [View.canon_unit_zero hz2]
  simp only [View.ld_unit_zero (S := S128x3133) hz2, View.ld_unit_zero (S := S512x3072) hz2, View.ld_unit_zero (S := S512x6) hz2,
    View.ld_unit_zero (S := S512x4) hz2, View.ld_unit_zero (S := S512x51) hz2, View.ld_unit_zero (S := S1x128) hz2,
    View.ld_unit_zero (S := S1x1x512) hz3]

/-- Entry `j` of what the body stores at point `t` is the region's function at row 512·t + j₀ and column j₁. -/
theorem stored_at_point (c : Dev nD) (t : Fin cfg0.N) (j : S512x128.Idx) :
    k0_pay1 (F := Ideal) (iblk m c 5 t) (iblk m c 0 t) (iblk m c 1 t) (iblk m c 2 t) (iblk m c 3 t) (iblk m c 6 t) (iblk m c 4 t) j
      = rowsAt (V m c main_v0) (V m c main_v1) (V m c main_v2) (V m c main_v3) (V m c main_v5) (V m c main_arg5) (V m c main_v6)
          (rowOf t (j 0)) (j 1) := by
  obtain ⟨p, q, rfl⟩ : ∃ (p : Fin 512) (q : Fin 128), j = ix2 p q := ⟨j 0, j 1, eq_ix2 j⟩
  refine (Payload.stored_apply _ _ _ _ _ _ _ p q).trans ?_
  unfold rowsAt
  have a0 : (fun k : Fin 3072 => (iblk m c 0 t : Vec Ideal S512x3072 .f32) (ix2 p k))
      = fun k => (V m c main_v0 : S32768x3072.Idx → EReal) (ix2 (rowOf t p) k) := funext fun k => block0_apply m c t p k
  have a1 : (fun k : Fin 6 => (iblk m c 1 t : Vec Ideal S512x6 .f32) (ix2 p k))
      = fun k => (V m c main_v1 : S32768x6.Idx → EReal) (ix2 (rowOf t p) k) := funext fun k => block1_apply m c t p k
  have a2 : (fun k : Fin 4 => (iblk m c 2 t : Vec Ideal S512x4 .f32) (ix2 p k))
      = fun k => (V m c main_v2 : S32768x4.Idx → EReal) (ix2 (rowOf t p) k) := funext fun k => block2_apply m c t p k
  have a3 : (fun k : Fin 51 => (iblk m c 3 t : Vec Ideal S512x51 .f32) (ix2 p k))
      = fun k => (V m c main_v3 : S32768x51.Idx → EReal) (ix2 (rowOf t p) k) := funext fun k => block3_apply m c t p k
  have a5 : (fun k : Fin 3133 => (iblk m c 5 t : Vec Ideal S128x3133 .f32) (ix2 q k))
      = fun k => (V m c main_arg5 : S128x3133.Idx → EReal) (ix2 q k) := funext fun k => block5_apply m c t q k
  exact congr (congr (congr (congr (congr (congr (congrArg token a0) a1) a2) a3) a5) (block6_apply m c t q)) (block4_apply m c t p)

/-- The output block's entry `j` at point `t` sits at row 512·t + j₀, column j₁ of the output array. -/
theorem out_emb (t : Fin cfg0.N) (j : S512x128.Idx) :
    ((cfg0.win 7).blk t).view.emb j = (ix2 (rowOf t (j 0)) (j 1) : S32768x128.Idx) := by
  obtain ⟨-, -, -, -, -, -, -, -, -, -, -, -, -, -, -, e0, e1⟩ := idx_facts t
  funext a
  apply Fin.ext
  match a with
  | ⟨0, _⟩ => show win0_7.index t (0 : Fin 2) * 512 + 1 * (j 0).val = t.val * 512 + (j 0).val; rw [e0]; omega
  | ⟨1, _⟩ => show win0_7.index t (1 : Fin 2) * 128 + 1 * (j 1).val = (j 1).val; rw [e1]; omega

/-- WHAT POINT `t` WRITES BACK is block `t` of the region's function of the arrays the region finds. -/
theorem flushed_eq (c : Dev nD) (t : Fin cfg0.N) :
    (dats m 0 c).flushed 7 t = ((cfg0.win 7).blk t).view.read (Elt Ideal)
      (rows (V m c main_v0) (V m c main_v1) (V m c main_v2) (V m c main_v3) (V m c main_v5) (V m c main_arg5) (V m c main_v6)) := by
  show (cfg0.win 7).cut (grid0.coords t) ((dats m 0 c).after 7 t) = _
  rw [after0_7, out_eq]
  funext j
  refine (stored_at_point m c t j).trans ?_
  rw [View.read_apply]
  show _ = rows (V m c main_v0) (V m c main_v1) (V m c main_v2) (V m c main_v3) (V m c main_v5) (V m c main_arg5) (V m c main_v6)
    (((cfg0.win 7).blk t).view.emb j)
  rw [out_emb t j]
  rfl

/-! ## The output blocks tile the array -/

/-- An index of the output array is in point `t`'s block iff each coordinate is in the block's range on its axis. -/
theorem mem_blk (t : Fin cfg0.N) (i : S32768x128.Idx) :
    i ∈ ((cfg0.win 7).blk t).view.set ↔ ∀ a : Fin 2, win0_7.index t a * S512x128.size a ≤ (i a).val
      ∧ (i a).val < win0_7.index t a * S512x128.size a + S512x128.size a := by
  show i ∈ ((View.whole main_v7).slice (win0_7.rect t)).set ↔ _
  rw [View.set_slice_whole, Rect.mem_set_unit]
  exact Iff.rfl

/-- Row r lies in the block of point r / 512, which is written back. -/
theorem cover (i : S32768x128.Idx) :
    ∃ t : Fin cfg0.N, (cfg0.win 7).flush t = true ∧ i ∈ ((cfg0.win 7).blk t).view.set := by
  have h0 : (i 0).val < 32768 := (i 0).isLt
  have h1 : (i 1).val < 128 := (i 1).isLt
  obtain ⟨t, ht⟩ : ∃ t : Fin cfg0.N, t.val = (i 0).val / 512 :=
    ⟨⟨(i 0).val / 512, by rw [show cfg0.N = 64 from N_0]; omega⟩, rfl⟩
  obtain ⟨-, -, -, -, -, -, -, -, -, -, -, -, -, -, -, e0, e1⟩ := idx_facts t
  refine ⟨t, flush0_7 t, ?_⟩
  rw [mem_blk]
  intro a
  match a with
  | ⟨0, _⟩ =>
    show win0_7.index t (0 : Fin 2) * 512 ≤ (i 0).val ∧ (i 0).val < win0_7.index t (0 : Fin 2) * 512 + 512
    rw [e0, ht]; omega
  | ⟨1, _⟩ =>
    show win0_7.index t (1 : Fin 2) * 128 ≤ (i 1).val ∧ (i 1).val < win0_7.index t (1 : Fin 2) * 128 + 128
    rw [e1]; omega

/-- THE OUTPUT ARRAY after the run is the region's function of the arrays the region finds. -/
theorem final (c : Dev nD) : (dats m 0 c).arrAt 7 cfg0.N
    = rows (V m c main_v0) (V m c main_v1) (V m c main_v2) (V m c main_v3) (V m c main_v5) (V m c main_arg5) (V m c main_v6) :=
  (dats m 0 c).arrAt_eq_of_cover 7 _ (fun t _ => flushed_eq m c t) cover

end Cert.KernelIdeal.Region

end
-- ==== Proof.Reshaped.lean ====
/-
  The region's function of the flattened arguments, folded back to three axes, is the specification.

  Around the region the host only re-reads the same numbers under other shapes, in row-major order: token (b, n)
  becomes row 2048·b + n of each band's matrix (the keypoints' 17 × 3 numbers becoming 51 columns, number k being
  component k mod 3 of keypoint k / 3); the mask bits become numbers 0 or 1 laid out as 64 lane rows of 512, token
  (b, n)'s at lane (2048·b + n) mod 512 of lane row (2048·b + n) / 512; the bias becomes a row; and the region's
  32768 × 128 result is read back as 16 × 2048 × 128, entry (b, n, t) being entry (2048·b + n, t). Each of these is
  one equation between row-major positions.
-/
import proofs.«172497_g48576080118602_cont_8to1_c_783_15_alg».proof.Proof.Region
import Idealize.ShloMosaic.Lib.ValueLayout

noncomputable section

namespace Cert.KernelIdeal.Reshaped

open Idealize.ShloMosaic Idealize.ShloMosaic.ValueIdx
open Cert.KernelIdeal Cert.KernelIdeal.Gen Cert.KernelIdeal.Region Cert.MaskedProjection

/-- Token (b, n) is row 2048·b + n. -/
def rowIdx (b : Fin 16) (n : Fin 2048) : Fin 32768 :=
  ⟨b.val * 2048 + n.val, by have := b.isLt; have := n.isLt; omega⟩

variable {α : Type}

/-- A band flattened to a matrix: row 2048·b + n, column k is the band's entry (b, n, k). -/
theorem flat_band_apply {K : ℕ} (X : (⟨3, ![16, 2048, K]⟩ : Shape).Idx → α)
    (h : (⟨3, ![16, 2048, K]⟩ : Shape).ShapeCasts ⟨2, ![32768, K]⟩) (b : Fin 16) (n : Fin 2048) (k : Fin K) :
    shapeCast ⟨2, ![32768, K]⟩ X h (ix2 (rowIdx b n) k) = X (ix3 b n k) :=
  shapeCast_apply X h _ _ (by
    rw [Shape.rowMajor_val_three, Shape.rowMajor_val_two]
    show (b.val * 2048 + n.val) * K + k.val = (b.val * 2048 + n.val) * K + k.val
    rfl)

/-- The keypoints flattened to 51 columns: column k of row 2048·b + n is component k mod 3 of keypoint k / 3. -/
theorem flat_keypoints_apply (X : S16x2048x17x3.Idx → α) (h : S16x2048x17x3.ShapeCasts S32768x51) (b : Fin 16) (n : Fin 2048) (k : Fin 51) :
    shapeCast S32768x51 X h (ix2 (rowIdx b n) k)
      = X (ix4 b n (⟨k.val / 3, by have := k.isLt; omega⟩ : Fin 17) (⟨k.val % 3, by omega⟩ : Fin 3)) :=
  shapeCast_apply X h _ _ (by
    rw [Shape.rowMajor_val_four, Shape.rowMajor_val_two]
    show ((b.val * 2048 + n.val) * 17 + k.val / 3) * 3 + k.val % 3 = (b.val * 2048 + n.val) * 51 + k.val
    omega)

/-- The mask laid out as 64 lane rows of 512: row r's place holds token (b, n)'s bit when r = 2048·b + n. -/
theorem flat_mask_apply (X : S16x2048.Idx → α) (h : S16x2048.ShapeCasts S64x1x512) (b : Fin 16) (n : Fin 2048) :
    shapeCast S64x1x512 X h (maskIdx (rowIdx b n)) = X (ix2 b n) :=
  shapeCast_apply X h _ _ (by
    rw [Shape.rowMajor_val_two, Shape.rowMajor_val_three]
    show b.val * 2048 + n.val = ((b.val * 2048 + n.val) / 512 * 1 + 0) * 512 + (b.val * 2048 + n.val) % 512
    omega)

/-- The bias as a row. -/
theorem flat_bias_apply (X : S128.Idx → α) (h : S128.ShapeCasts S1x128) (t : Fin 128) :
    shapeCast S1x128 X h (ix2 (0 : Fin 1) t) = X (ix1 t) :=
  shapeCast_apply X h _ _ (by
    rw [Shape.rowMajor_val_one, Shape.rowMajor_val_two]
    show t.val = 0 * 128 + t.val
    omega)

/-- The result folded back: entry (b, n, t) is the matrix's entry (2048·b + n, t). -/
theorem fold_result_apply (R : S32768x128.Idx → α) (h : S32768x128.ShapeCasts S16x2048x128) (b : Fin 16) (n : Fin 2048) (t : Fin 128) :
    shapeCast S16x2048x128 R h (ix3 b n t) = R (ix2 (rowIdx b n) t) :=
  shapeCast_apply R h _ _ (by
    rw [Shape.rowMajor_val_two, Shape.rowMajor_val_three]
    show (b.val * 2048 + n.val) * 128 + t.val = (b.val * 2048 + n.val) * 128 + t.val
    rfl)

/-- The region's function of the flattened arguments, folded back, is the specification's array of the arguments. -/
theorem folded_rows_eq_tokens (x0 : S16x2048x3072.Idx → EReal) (x1 : S16x2048x6.Idx → EReal) (x2 : S16x2048x4.Idx → EReal)
    (x3 : S16x2048x17x3.Idx → EReal) (x4 : S16x2048.Idx → BitVec 1) (x5 : S128x3133.Idx → EReal) (x6 : S128.Idx → EReal) :
    shapeCast S16x2048x128
        (rows (shapeCast S32768x3072 x0 shapeCasts_S16x2048x3072_S32768x3072) (shapeCast S32768x6 x1 shapeCasts_S16x2048x6_S32768x6)
          (shapeCast S32768x4 x2 shapeCasts_S16x2048x4_S32768x4) (shapeCast S32768x51 x3 shapeCasts_S16x2048x17x3_S32768x51)
          (uitofp (F := Ideal) .f32 (shapeCast S64x1x512 x4 shapeCasts_S16x2048_S64x1x512)) x5
          (shapeCast S1x128 x6 shapeCasts_S128_S1x128))
        shapeCasts_S32768x128_S16x2048x128
      = tokens x0 x1 x2 x3 x4 x5 x6 := by
  funext i
  obtain ⟨b, n, t, rfl⟩ : ∃ (b : Fin 16) (n : Fin 2048) (t : Fin 128), i = ix3 b n t := ⟨i 0, i 1, i 2, eq_ix3 i⟩
  rw [tokens_apply]
  refine (fold_result_apply _ shapeCasts_S32768x128_S16x2048x128 b n t).trans ?_
  show rowsAt _ _ _ _ _ _ _ (rowIdx b n) t = _
  unfold rowsAt tokenAt
  exact congr (congr (congr (congr (congr (congr (congrArg token
      (funext fun k => flat_band_apply x0 shapeCasts_S16x2048x3072_S32768x3072 b n k))
      (funext fun k => flat_band_apply x1 shapeCasts_S16x2048x6_S32768x6 b n k))
      (funext fun k => flat_band_apply x2 shapeCasts_S16x2048x4_S32768x4 b n k))
      (funext fun k => flat_keypoints_apply x3 shapeCasts_S16x2048x17x3_S32768x51 b n k))
      rfl)
      (flat_bias_apply x6 shapeCasts_S128_S1x128 t))
      (congrArg (fun c : BitVec 1 => (((c.toNat : ℝ)) : EReal)) (flat_mask_apply x4 shapeCasts_S16x2048_S64x1x512 b n))

end Cert.KernelIdeal.Reshaped

end
-- ==== Proof.KernelRun.lean ====
/-
  The kernel's whole program, read: it ends with its result array at the specification's function of its arguments.

  Before the region the host flattens the four bands, turns the mask bits into numbers laid out as lane rows, and
  writes the bias as a row; the weights go in as they are. After the region the host folds the region's 32768 × 128
  output back to 16 × 2048 × 128. The region's output array is the region's function of what it found (the region's
  value), so the program's result is that function of the flattened arguments, folded back: the specification.
-/
import proofs.«172497_g48576080118602_cont_8to1_c_783_15_alg».proof.Proof.Gen.KernelIdeal.Frame
import proofs.«172497_g48576080118602_cont_8to1_c_783_15_alg».proof.Proof.Region
import proofs.«172497_g48576080118602_cont_8to1_c_783_15_alg».proof.Proof.Reshaped
import Idealize.ShloMosaic.Lib.StableHlo.Run

set_option maxRecDepth 16384

noncomputable section

namespace Cert.KernelIdeal.Whole

open Idealize.ShloMosaic Idealize.ShloMosaic.TcCoe Idealize.SL.Sem Idealize.ShloMosaic.ValueIdx Idealize.ShloMosaic.StableHlo
open Idealize.ShloMosaic.Pipeline (Dat)
open Cert.KernelIdeal Cert.KernelIdeal.Gen Cert.MaskedProjection Cert.KernelIdeal.Region

variable (m : (ℓ : Loc nD τ sig) → Buf (Elt Ideal) ℓ) (ρ : Dev nD → PrngReg)

/-! ## What the region finds -/

theorem entry_emb (c : Dev nD) : (V m c main_v0 : S32768x3072.Idx → EReal)
    = shapeCast S32768x3072 (m ((c : Thread nD τ).loc main_arg0)) shapeCasts_S16x2048x3072_S32768x3072 := by
  show StableHlo.after hostOps0 (fun b => m (c, b)) (Proc.devRef .tc main_v0) = _
  after_results
  rfl

theorem entry_vis (c : Dev nD) : (V m c main_v1 : S32768x6.Idx → EReal)
    = shapeCast S32768x6 (m ((c : Thread nD τ).loc main_arg1)) shapeCasts_S16x2048x6_S32768x6 := by
  show StableHlo.after hostOps0 (fun b => m (c, b)) (Proc.devRef .tc main_v1) = _
  after_results
  rfl

theorem entry_box (c : Dev nD) : (V m c main_v2 : S32768x4.Idx → EReal)
    = shapeCast S32768x4 (m ((c : Thread nD τ).loc main_arg2)) shapeCasts_S16x2048x4_S32768x4 := by
  show StableHlo.after hostOps0 (fun b => m (c, b)) (Proc.devRef .tc main_v2) = _
  after_results
  rfl

theorem entry_kpt (c : Dev nD) : (V m c main_v3 : S32768x51.Idx → EReal)
    = shapeCast S32768x51 (m ((c : Thread nD τ).loc main_arg3)) shapeCasts_S16x2048x17x3_S32768x51 := by
  show StableHlo.after hostOps0 (fun b => m (c, b)) (Proc.devRef .tc main_v3) = _
  after_results
  rfl

/-- The mask as the region finds it: each bit as the number 0 or 1, in 64 lane rows of 512. -/
theorem entry_mask (c : Dev nD) : (V m c main_v5 : S64x1x512.Idx → EReal)
    = uitofp (F := Ideal) .f32 (shapeCast S64x1x512 (m ((c : Thread nD τ).loc main_arg4)) shapeCasts_S16x2048_S64x1x512) := by
  show StableHlo.after hostOps0 (fun b => m (c, b)) (Proc.devRef .tc main_v5) = _
  after_results
  rfl

theorem entry_bias (c : Dev nD) : (V m c main_v6 : S1x128.Idx → EReal)
    = shapeCast S1x128 (m ((c : Thread nD τ).loc main_arg6)) shapeCasts_S128_S1x128 := by
  show StableHlo.after hostOps0 (fun b => m (c, b)) (Proc.devRef .tc main_v6) = _
  after_results
  rfl

/-! ## What the host makes of the region's output -/

/-- The program's result buffer after the last host line: the region's output array, folded to three axes. -/
theorem tail_result (c : Dev nD) :
    Pipeline.afterTail₀ cfgs (dats m) 0 (V0 m) [hostOps1] c main_v8
      = shapeCast S16x2048x128 ((dats m 0 c).arrAt 7 cfg0.N) shapeCasts_S32768x128_S16x2048x128 := by
  unfold Pipeline.afterTail₀
  show StableHlo.after hostOps1 _ (Proc.devRef .tc main_v8) = _
  after_results
  funext i
  exact congrFun (congrArg (fun X : S32768x128.Idx → EReal => shapeCast S16x2048x128 X shapeCasts_S32768x128_S16x2048x128)
    (Pipeline.withArrays_arr spec0 launch0.win.arr_inj c (V0 m c) (fun w => (dats m 0 c).arrAt w cfg0.N) 7)) i

/-- The program's result is the specification's array of the arguments. -/
theorem result (c : Dev nD) :
    Pipeline.afterTail₀ cfgs (dats m) 0 (V0 m) [hostOps1] c main_v8
      = tokens (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  rw [tail_result, Region.final, entry_emb, entry_vis, entry_box, entry_kpt, entry_mask, V_main_arg5, entry_bias]
  exact Reshaped.folded_rows_eq_tokens _ _ _ _ _ _ _

/-! ## The run -/

/-- Every weakly fair execution of the kernel's program terminates with the result at the specification's array of the
    arguments and the arguments unchanged. -/
theorem run : θ_run defs (onTc (τ := τ) (main (F := Ideal))) ⟨m, fun _ => 0, ρ⟩ fun r => ∀ c : Dev nD,
      r.2.mem ((c.tc : Thread nD τ).loc main_v8)
        = tokens (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v8 (Pipeline.mem_restRefs_of main_v8 (by decide) (by decide))).trans (result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).1 5).trans (((dats m 0 c).arrAt_in 5 rfl _).trans ((A_eq m c 5).trans (V_main_arg5 m c))),
      ((h c).2 main_arg6 (Pipeline.mem_restRefs_of main_arg6 (by decide) (by decide))).trans (W_main_arg6 m (dats m) c)⟩)
    (run_main m ρ)

end Cert.KernelIdeal.Whole

end
-- ==== Proof.lean ====
/-
  A masked linear projection: for each of 16 × 2048 tokens, the token's 3133 features — 3072 embedding entries, 6
  visibility scores, 4 box coordinates and 17 × 3 keypoint numbers — are projected to 128 output features by a weight
  matrix and a bias, and the result is kept where the token's mask bit is set and is zero elsewhere.

  The reference concatenates the four feature bands into rows of 3133, takes one contraction with the weights, adds the
  bias and selects between that and zero by the mask bit. The kernel never builds the concatenation: on blocks of 512
  token rows it takes four matrix products, one per band against the matching stretch of columns of the weights, adds
  them and the bias, and multiplies by the mask bit read as the number 0 or 1. Over the extended reals the two agree
  entry by entry: a sum over 3133 positions is the sum of its four stretches (addition is commutative and associative,
  infinities included), and selecting between x and 0 by a bit is x times the bit (x · 0 = 0 and x · 1 = x for every
  extended real). So the equivalence uses nothing of the inputs' finiteness.

  Spec       the specification: one output entry, and the two ways of writing it
  RefTokens  the reference's result is the specification
  Payload    the kernel body's stored block at an entry
  Region     the region's output array as one function of what the region finds
  Reshaped   the host's flattenings and the folding back, read at an index
  KernelRun  the kernel's whole program ends with its result at the specification
-/
import proofs.«172497_g48576080118602_cont_8to1_c_783_15_alg».proof.Defs
import proofs.«172497_g48576080118602_cont_8to1_c_783_15_alg».proof.Proof.Gen.Kernel
import proofs.«172497_g48576080118602_cont_8to1_c_783_15_alg».proof.Proof.Gen.Kernel.Frame
import proofs.«172497_g48576080118602_cont_8to1_c_783_15_alg».proof.Proof.Gen.KernelIdeal
import proofs.«172497_g48576080118602_cont_8to1_c_783_15_alg».proof.Proof.Gen.KernelIdeal.Frame
import proofs.«172497_g48576080118602_cont_8to1_c_783_15_alg».proof.Proof.Gen.ReferenceIdeal
import proofs.«172497_g48576080118602_cont_8to1_c_783_15_alg».proof.Proof.Gen.Pre_finite_inputs
import proofs.«172497_g48576080118602_cont_8to1_c_783_15_alg».proof.Proof.Gen.ReferenceIdeal.Run
import proofs.«172497_g48576080118602_cont_8to1_c_783_15_alg».proof.Proof.Gen.ReferenceIdeal.Read
import proofs.«172497_g48576080118602_cont_8to1_c_783_15_alg».proof.Proof.RefTokens
import proofs.«172497_g48576080118602_cont_8to1_c_783_15_alg».proof.Proof.KernelRun
import Idealize.ShloMosaic.Adequacy
import Idealize.ShloMosaic.Init

noncomputable section

namespace Cert.Proof

open Idealize.ShloMosaic Idealize.ShloMosaic.TcCoe Idealize.SL.Sem Cert.MaskedProjection

/-- The kernel as printed runs and leaves its arguments as they were. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end with their result at the specification's array of the same arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v8_eq _ _ _ _ _ _ _).trans ?_
  refine (Cert.ReferenceIdeal.RefValue.result_eq_tokens _ _ _ _ _ _ _).trans ?_
  obtain ⟨e0, e1, e2, e3, e4, e5, e6⟩ := hagree c
  rw [e0, e1, e2, e3, e4, e5, e6]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
